-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x512x512 : Shape := ⟨3, ![64, 512, 512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_

variable [Facts]

def fn {F : FTy → Type} [FloatOps F] (main_arg0 : FVec F S64x1024x512 .f32) (main_arg1 : FVec F S64x512x512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x1024x512 : Shape := ⟨3, ![64, 1024, 512]⟩
abbrev S64x512x512 : Shape := ⟨3, ![64, 512, 512]⟩
abbrev S64x128 : Shape := ⟨2, ![64, 128]⟩
abbrev S8x128x512 : Shape := ⟨3, ![8, 128, 512]⟩
abbrev S8x512x512 : Shape := ⟨3, ![8, 512, 512]⟩
abbrev S8x128 : Shape := ⟨2, ![8, 128]⟩
abbrev S8x512 : Shape := ⟨2, ![8, 512]⟩
abbrev S8x1 : Shape := ⟨2, ![8, 1]⟩
abbrev S8x128x1 : Shape := ⟨3, ![8, 128, 1]⟩
abbrev S8x1x512 : Shape := ⟨3, ![8, 1, 512]⟩
abbrev S8 : Shape := ⟨1, ![8]⟩
abbrev S64x1 : Shape := ⟨2, ![64, 1]⟩
abbrev S64 : Shape := ⟨1, ![64]⟩

abbrev nBuf : Space → Nat
  | .hbm => 5
  | .vmem => 10
  | .smem => 0
  | _ => 0

abbrev bufTy : (tb : Table) → Fin (tcTables nBuf tb) → BufTy
  | .hbm, ⟨0, _⟩ => ⟨S64x1024x512, .f32⟩
  | .hbm, ⟨1, _⟩ => ⟨S64x512x512, .f32⟩
  | .hbm, ⟨2, _⟩ => ⟨S64x128, .f32⟩
  | .hbm, ⟨3, _⟩ => ⟨S64x1, .f32⟩
  | .hbm, ⟨4, _⟩ => ⟨S64, .f32⟩
  | .local _ .vmem, ⟨0, _⟩ => ⟨S8x128x512, .f32⟩
  | .local _ .vmem, ⟨1, _⟩ => ⟨S8x128x512, .f32⟩
  | .local _ .vmem, ⟨2, _⟩ => ⟨S8x512x512, .f32⟩
  | .local _ .vmem, ⟨3, _⟩ => ⟨S8x512x512, .f32⟩
  | .local _ .vmem, ⟨4, _⟩ => ⟨S8x128, .f32⟩
  | .local _ .vmem, ⟨5, _⟩ => ⟨S8x128, .f32⟩
  | .local _ .vmem, ⟨6, _⟩ => ⟨S8x512, .f32⟩
  | .local _ .vmem, ⟨7, _⟩ => ⟨S8x1, .f32⟩
  | .local _ .vmem, ⟨8, _⟩ => ⟨S8x512, .f32⟩
  | .local _ .vmem, ⟨9, _⟩ => ⟨S8x512x512, .bf16⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x512_S8x512x512_0_0_0 : ∀ a, (![0, 0, 0] : Fin 3 → Nat) a + S8x512x512.size a ≤ S8x512x512.size a
  h_S8x512x512 : 0 < S8x512x512.numel
  reduces_S8x512x512_S8x512 : S8x512x512.Reduces [2] S8x512
  bitsLt_bf16_f32 : FTy.bits .bf16 < FTy.bits .f32
  shapeCasts_S8x512x512_S8x512x512 : S8x512x512.ShapeCasts S8x512x512
  packedbf16_S8x512x512_S8x512x512_0_0_0 : (Rect.unit (s := S8x512x512) ![0, 0, 0] S8x512x512.size inb_S8x512x512_S8x512x512_0_0_0).PackedRows (EltTy.packing .bf16)
  inb_S8x128x512_S8x128x512_0_0_0 : ∀ a, (![0, 0, 0] : Fin 3 → Nat) a + S8x128x512.size a ≤ S8x128x512.size a
  h_S8x128x512 : 0 < S8x128x512.numel
  reduces_S8x128x512_S8x128 : S8x128x512.Reduces [2] S8x128
  shapeCasts_S8x128_S8x128x1 : S8x128.ShapeCasts S8x128x1
  shapeCasts_S8x512_S8x1x512 : S8x512.ShapeCasts S8x1x512
  broadcasts_S8x128x1_S8x128x512 : S8x128x1.Broadcasts S8x128x512
  broadcasts_S8x1x512_S8x128x512 : S8x1x512.Broadcasts S8x128x512
  reduces_S8x128_S8 : S8x128.Reduces [1] S8
  shapeCasts_S8_S8x1 : S8.ShapeCasts S8x1
  reduces_S8x128x512_S8x512 : S8x128x512.Reduces [1] S8x512
  reduces_S8x512_S8 : S8x512.Reduces [1] S8
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  dot_S8x128x512_S8x512x512_S8x128x512_2_2_1_1_0_0_wf : DotDims.WF S8x128x512 S8x512x512 S8x128x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x1024x512.size a
  hwx0_0 : ∀ i : grid0.Coords, EltTy.bits .f32 = 32 ∨ (Rect.block (s := S64x1024x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S8x128x512_S8x512x512_S8x128x512_2_2_1_1_0_0 : DotDims S8x128x512 S8x512x512 S8x128x512 where
  lhsContracting := [2]
  rhsContracting := [2]
  lhsNonContracting := [1]
  rhsNonContracting := [1]
  lhsBatch := [0]
  rhsBatch := [0]
  wf := dot_S8x128x512_S8x512x512_S8x128x512_2_2_1_1_0_0_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x512 : Shape := ⟨3, ![64, 1024, 512]⟩
abbrev S64x512x512 : Shape := ⟨3, ![64, 512, 512]⟩
abbrev S_ : Shape := ⟨0, ![]⟩
abbrev S64x1024 : Shape := ⟨2, ![64, 1024]⟩
abbrev S64x1024x1 : Shape := ⟨3, ![64, 1024, 1]⟩
abbrev S64x512 : Shape := ⟨2, ![64, 512]⟩
abbrev S64x512x1 : Shape := ⟨3, ![64, 512, 1]⟩
abbrev S64x1x512 : Shape := ⟨3, ![64, 1, 512]⟩
abbrev S64 : Shape := ⟨1, ![64]⟩

abbrev nBuf : Space → Nat
  | .hbm => 34
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x512x512, .f32⟩
  | .hbm, ⟨2, _⟩ => ⟨S64x1024x512, .f32⟩
  | .hbm, ⟨3, _⟩ => ⟨S_, .f32⟩
  | .hbm, ⟨4, _⟩ => ⟨S64x1024, .f32⟩
  | .hbm, ⟨5, _⟩ => ⟨S64x1024x1, .f32⟩
  | .hbm, ⟨6, _⟩ => ⟨S64x512x512, .f32⟩
  | .hbm, ⟨7, _⟩ => ⟨S_, .f32⟩
  | .hbm, ⟨8, _⟩ => ⟨S64x512, .f32⟩
  | .hbm, ⟨9, _⟩ => ⟨S64x512x1, .f32⟩
  | .hbm, ⟨10, _⟩ => ⟨S64x1024x512, .f32⟩
  | .hbm, ⟨11, _⟩ => ⟨S_, .f32⟩
  | .hbm, ⟨12, _⟩ => ⟨S64x1024x512, .f32⟩
  | .hbm, ⟨13, _⟩ => ⟨S64x1024x512, .f32⟩
  | .hbm, ⟨14, _⟩ => ⟨S64x1024x512, .f32⟩
  | .hbm, ⟨15, _⟩ => ⟨S64x1024x512, .f32⟩
  | .hbm, ⟨16, _⟩ => ⟨S64x1x512, .f32⟩
  | .hbm, ⟨17, _⟩ => ⟨S64x1024x512, .f32⟩
  | .hbm, ⟨18, _⟩ => ⟨S64x1024x512, .f32⟩
  | .hbm, ⟨19, _⟩ => ⟨S_, .f32⟩
  | .hbm, ⟨20, _⟩ => ⟨S64x1024, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64x512, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x1024x512_S64x1024_d2 : S64x1024x512.ReducesTo [2] S64x1024
  h_S_ : 0 < S_.numel
  bcast_S64x1024_S64x1024x1_0_1 : S64x1024.BroadcastsInDim S64x1024x1 (![0, 1] : Fin 2 → Fin S64x1024x1.rank)
  reducesTo_S64x512x512_S64x512_d2 : S64x512x512.ReducesTo [2] S64x512
  bcast_S64x512_S64x512x1_0_1 : S64x512.BroadcastsInDim S64x512x1 (![0, 1] : Fin 2 → Fin S64x512x1.rank)
  bcast_S_S64x1024x512 : S_.BroadcastsInDim S64x1024x512 (![] : Fin 0 → Fin S64x1024x512.rank)
  bcast_S64x1024x1_S64x1024x512_0_1_2 : S64x1024x1.BroadcastsInDim S64x1024x512 (![0, 1, 2] : Fin 3 → Fin S64x1024x512.rank)
  transposes_S64x512x1_S64x1x512_0_2_1 : S64x512x1.Transposes [0, 2, 1] S64x1x512
  bcast_S64x1x512_S64x1024x512_0_1_2 : S64x1x512.BroadcastsInDim S64x1024x512 (![0, 1, 2] : Fin 3 → Fin S64x1024x512.rank)
  reducesTo_S64x1024_S64_d1 : S64x1024.ReducesTo [1] S64
  bcast_S_S64 : S_.BroadcastsInDim S64 (![] : Fin 0 → Fin S64.rank)
  reducesTo_S64x1024x512_S64x512_d1 : S64x1024x512.ReducesTo [1] S64x512
  reducesTo_S64x512_S64_d1 : S64x512.ReducesTo [1] S64
  dot_S64x1024x512_S64x512x512_S64x1024x512_2_2_1_1_0_0_wf : DotDims.WF S64x1024x512 S64x512x512 S64x1024x512 [2] [2] [1] [1] [0] [0]

variable [Facts₀]

def dot_S64x1024x512_S64x512x512_S64x1024x512_2_2_1_1_0_0 : DotDims S64x1024x512 S64x512x512 S64x1024x512 where
  lhsContracting := [2]
  rhsContracting := [2]
  lhsNonContracting := [1]
  rhsNonContracting := [1]
  lhsBatch := [0]
  rhsBatch := [0]
  wf := dot_S64x1024x512_S64x512x512_S64x1024x512_2_2_1_1_0_0_wf

class Facts : Prop extends Facts₀ where

variable [Facts]
-- ==== Proof.KernelPieces.lean ====
/-
  The kernel body, case by case, as pure functions of what each grid point starts from.

  The grid is 8 batch tiles by 8 tiles of 128 video rows, walked row-major: point t is batch tile t / 8, video tile
  t % 8.  Four scratch buffers live across the points of one batch tile: the running minimum over the video rows seen
  so far, for every (batch, language row); the running sum over those video rows of each row's minimum over the
  language rows; the language rows' squared norms; and the language block itself (narrowed for the product).  This
  module reads the stores of each of the body's three control cases back as values, for any float instance.
-/
import proofs.«178656_j9534827397593_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the carried scratch and in the output block

The body's stores, as the run found them, are whole-buffer stores; a load that follows a store of the same buffer
reads the stored value back.  So each buffer ends at ONE payload of the values the case started from: the first
point of a batch tile starts the two accumulators (+∞ for the running minimum, 0 for the running sum) and fills the
language-side scratch from the language block, every point then folds its video block in, and the last point of the
tile also writes the output block from the two accumulators it has just updated. -/

theorem sA0 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : cond0_0 i) (hc1 : ¬cond0_1 i) (x0 : Vec F S8x128x512 .f32) (x1 : Vec F S8x512x512 .f32) :
    sout0_A_0 c i arg2 harg2 arg3 harg3 arg4 harg4 arg5 harg5 arg6 harg6 arg7 harg7 arg8 harg8 hc0 hc1 x0 x1 = k0_pay8 x0 (k0_pay5 x1) (k0_pay4 x1) k0_pay2 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x512) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sA1 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : cond0_0 i) (hc1 : ¬cond0_1 i) (x0 : Vec F S8x128x512 .f32) (x1 : Vec F S8x512x512 .f32) :
    sout0_A_1 c i arg2 harg2 arg3 harg3 arg4 harg4 arg5 harg5 arg6 harg6 arg7 harg7 arg8 harg8 hc0 hc1 x0 x1 = k0_pay7 x0 (k0_pay5 x1) (k0_pay4 x1) k0_pay3 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x1) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sA2 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : cond0_0 i) (hc1 : ¬cond0_1 i) (x0 : Vec F S8x128x512 .f32) (x1 : Vec F S8x512x512 .f32) :
    sout0_A_2 c i arg2 harg2 arg3 harg3 arg4 harg4 arg5 harg5 arg6 harg6 arg7 harg7 arg8 harg8 hc0 hc1 x0 x1 = k0_pay4 x1 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero (S := S8x512) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sA3 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : cond0_0 i) (hc1 : ¬cond0_1 i) (x0 : Vec F S8x128x512 .f32) (x1 : Vec F S8x512x512 .f32) :
    sout0_A_3 c i arg2 harg2 arg3 harg3 arg4 harg4 arg5 harg5 arg6 harg6 arg7 harg7 arg8 harg8 hc0 hc1 x0 x1 = k0_pay5 x1 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S8x512x512) hz3]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sB0 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : ¬cond0_0 i) (hc1 : ¬cond0_1 i) (x0 : Vec F S8x128x512 .f32) (x1 : Vec F S8x512x512 .f32) (xs0 : Vec F S8x512 .f32) (xs1 : Vec F S8x1 .f32) (xs2 : Vec F S8x512 .f32) (xs3 : Vec F S8x512x512 .bf16) :
    sout0_B_0 c i arg2 harg2 arg3 harg3 arg4 harg4 arg5 harg5 arg6 harg6 arg7 harg7 arg8 harg8 hc0 hc1 x0 x1 xs0 xs1 xs2 xs3 = k0_pay8 x0 xs3 xs2 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S8x512) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sB1 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : ¬cond0_0 i) (hc1 : ¬cond0_1 i) (x0 : Vec F S8x128x512 .f32) (x1 : Vec F S8x512x512 .f32) (xs0 : Vec F S8x512 .f32) (xs1 : Vec F S8x1 .f32) (xs2 : Vec F S8x512 .f32) (xs3 : Vec F S8x512x512 .bf16) :
    sout0_B_1 c i arg2 harg2 arg3 harg3 arg4 harg4 arg5 harg5 arg6 harg6 arg7 harg7 arg8 harg8 hc0 hc1 x0 x1 xs0 xs1 xs2 xs3 = k0_pay7 x0 xs3 xs2 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S8x1) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sC0 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : ¬cond0_0 i) (hc1 : cond0_1 i) (x0 : Vec F S8x128x512 .f32) (x1 : Vec F S8x512x512 .f32) (xs0 : Vec F S8x512 .f32) (xs1 : Vec F S8x1 .f32) (xs2 : Vec F S8x512 .f32) (xs3 : Vec F S8x512x512 .bf16) :
    sout0_C_0 c i arg2 harg2 arg3 harg3 arg4 harg4 arg5 harg5 arg6 harg6 arg7 harg7 arg8 harg8 hc0 hc1 x0 x1 xs0 xs1 xs2 xs3 = k0_pay8 x0 xs3 xs2 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S8x512) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem sC1 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : ¬cond0_0 i) (hc1 : cond0_1 i) (x0 : Vec F S8x128x512 .f32) (x1 : Vec F S8x512x512 .f32) (xs0 : Vec F S8x512 .f32) (xs1 : Vec F S8x1 .f32) (xs2 : Vec F S8x512 .f32) (xs3 : Vec F S8x512x512 .bf16) :
    sout0_C_1 c i arg2 harg2 arg3 harg3 arg4 harg4 arg5 harg5 arg6 harg6 arg7 harg7 arg8 harg8 hc0 hc1 x0 x1 xs0 xs1 xs2 xs3 = k0_pay7 x0 xs3 xs2 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S8x1) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

theorem oC2 (c : Dev nD) (i : grid0.Coords) (arg2 : Memref sig .tc .vmem S8x128x512 .f32) (harg2 : arg2.IsWhole) (arg3 : Memref sig .tc .vmem S8x512x512 .f32) (harg3 : arg3.IsWhole) (arg4 : Memref sig .tc .vmem S8x128 .f32) (harg4 : arg4.IsWhole) (arg5 : Memref sig .tc .vmem S8x512 .f32) (harg5 : arg5.IsWhole) (arg6 : Memref sig .tc .vmem S8x1 .f32) (harg6 : arg6.IsWhole) (arg7 : Memref sig .tc .vmem S8x512 .f32) (harg7 : arg7.IsWhole) (arg8 : Memref sig .tc .vmem S8x512x512 .bf16) (harg8 : arg8.IsWhole) (hc0 : ¬cond0_0 i) (hc1 : cond0_1 i) (x0 : Vec F S8x128x512 .f32) (x1 : Vec F S8x512x512 .f32) (xs0 : Vec F S8x512 .f32) (xs1 : Vec F S8x1 .f32) (xs2 : Vec F S8x512 .f32) (xs3 : Vec F S8x512x512 .bf16) :
    out0_C_2 c i arg2 harg2 arg3 harg3 arg4 harg4 arg5 harg5 arg6 harg6 arg7 harg7 arg8 harg8 hc0 hc1 x0 x1 xs0 xs1 xs2 xs3 = k0_pay1 (k0_pay7 x0 xs3 xs2 xs1) (k0_pay8 x0 xs3 xs2 xs0) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S8x128) hz2]
  simp only [View.readCov_unit_zero (S := S8x512x512) _ hz3, View.readCov_unit_zero (S := S8x512) _ hz2, View.readCov_unit_zero (S := S8x1) _ hz2, View.readAt_eq_ld, harg2.read_unread, harg3.read_unread, harg5.read_unread, harg6.read_unread, harg7.read_unread, harg8.read_unread, View.ld_unit_zero (S := S8x128x512) hz3, View.ld_unit_zero (S := S8x512x512) hz3, View.ld_unit_zero (S := S8x512) hz2, View.ld_unit_zero (S := S8x1) hz2]

end Cert.KernelIdeal.Pieces
end
-- ==== Proof.KernelSteps.lean ====
/-
  What the carried scratch and the output block hold after each grid point, as the case's payload of the point's two
  input blocks and of what the point before left: the recursion the frame run defines, with each case's stores read
  back (Proof/KernelPieces.lean), for any float instance.
-/
import proofs.«178656_j9534827397593_2_alg».proof.Proof.KernelPieces
import Idealize.ShloMosaic.Lib.Pipeline.Value
import Idealize.ShloMosaic.Lib.Tactic

set_option pp.maxSteps 20000
set_option pp.deepTerms false

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

open Cert.KernelIdeal.Pieces
variable (m : (ℓ : Loc nD τ sig) → Buf (Elt F) ℓ)

/-- The video block and the language block of point `t`, at their literal shapes. -/
abbrev xblk (c : Dev nD) (t : Fin cfg0.N) : Vec F S8x128x512 .f32 := iblk m c 0 t
abbrev yblk (c : Dev nD) (t : Fin cfg0.N) : Vec F S8x512x512 .f32 := iblk m c 1 t

/-- What the carried scratch holds after the point before `t`. -/
abbrev prev (c : Dev nD) (t : Fin cfg0.N) := (outsAt0 m c (t.val - 1) (Nat.lt_of_le_of_lt (Nat.sub_le _ _) t.isLt))

/-! ## After the first point of a batch tile -/

theorem stepA_0 (c : Dev nD) (t : Fin cfg0.N) (h0 : t.val % 8 = 0) (h1 : ¬t.val % 8 = 7) :
    (outsAt0 m c t.val t.isLt).2.1 = k0_pay8 (xblk m c t) (k0_pay5 (yblk m c t)) (k0_pay4 (yblk m c t)) k0_pay2 := by
  rw [outsAt0_A m c t h0 h1]; dsimp only
  exact sA0 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

theorem stepA_1 (c : Dev nD) (t : Fin cfg0.N) (h0 : t.val % 8 = 0) (h1 : ¬t.val % 8 = 7) :
    (outsAt0 m c t.val t.isLt).2.2.1 = k0_pay7 (xblk m c t) (k0_pay5 (yblk m c t)) (k0_pay4 (yblk m c t)) k0_pay3 := by
  rw [outsAt0_A m c t h0 h1]; dsimp only
  exact sA1 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

theorem stepA_2 (c : Dev nD) (t : Fin cfg0.N) (h0 : t.val % 8 = 0) (h1 : ¬t.val % 8 = 7) :
    (outsAt0 m c t.val t.isLt).2.2.2.1 = k0_pay4 (yblk m c t) := by
  rw [outsAt0_A m c t h0 h1]; dsimp only
  exact sA2 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

theorem stepA_3 (c : Dev nD) (t : Fin cfg0.N) (h0 : t.val % 8 = 0) (h1 : ¬t.val % 8 = 7) :
    (outsAt0 m c t.val t.isLt).2.2.2.2 = k0_pay5 (yblk m c t) := by
  rw [outsAt0_A m c t h0 h1]; dsimp only
  exact sA3 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

/-! ## After a middle point -/

theorem stepB_0 (c : Dev nD) (t : Fin cfg0.N) (h0 : ¬t.val % 8 = 0) (h1 : ¬t.val % 8 = 7) :
    (outsAt0 m c t.val t.isLt).2.1 = k0_pay8 (xblk m c t) (prev m c t).2.2.2.2 (prev m c t).2.2.2.1 (prev m c t).2.1 := by
  rw [outsAt0_B m c t h0 h1]; dsimp only
  exact sB0 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem stepB_1 (c : Dev nD) (t : Fin cfg0.N) (h0 : ¬t.val % 8 = 0) (h1 : ¬t.val % 8 = 7) :
    (outsAt0 m c t.val t.isLt).2.2.1 = k0_pay7 (xblk m c t) (prev m c t).2.2.2.2 (prev m c t).2.2.2.1 (prev m c t).2.2.1 := by
  rw [outsAt0_B m c t h0 h1]; dsimp only
  exact sB1 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem stepB_2 (c : Dev nD) (t : Fin cfg0.N) (h0 : ¬t.val % 8 = 0) (h1 : ¬t.val % 8 = 7) :
    (outsAt0 m c t.val t.isLt).2.2.2.1 = (prev m c t).2.2.2.1 := by
  rw [outsAt0_B m c t h0 h1]; rfl

theorem stepB_3 (c : Dev nD) (t : Fin cfg0.N) (h0 : ¬t.val % 8 = 0) (h1 : ¬t.val % 8 = 7) :
    (outsAt0 m c t.val t.isLt).2.2.2.2 = (prev m c t).2.2.2.2 := by
  rw [outsAt0_B m c t h0 h1]; rfl

/-! ## After the last point of a batch tile -/

theorem stepC_0 (c : Dev nD) (t : Fin cfg0.N) (h0 : ¬t.val % 8 = 0) (h1 : t.val % 8 = 7) :
    (outsAt0 m c t.val t.isLt).2.1 = k0_pay8 (xblk m c t) (prev m c t).2.2.2.2 (prev m c t).2.2.2.1 (prev m c t).2.1 := by
  rw [outsAt0_C m c t h0 h1]; dsimp only
  exact sC0 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem stepC_1 (c : Dev nD) (t : Fin cfg0.N) (h0 : ¬t.val % 8 = 0) (h1 : t.val % 8 = 7) :
    (outsAt0 m c t.val t.isLt).2.2.1 = k0_pay7 (xblk m c t) (prev m c t).2.2.2.2 (prev m c t).2.2.2.1 (prev m c t).2.2.1 := by
  rw [outsAt0_C m c t h0 h1]; dsimp only
  exact sC1 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem stepC_2 (c : Dev nD) (t : Fin cfg0.N) (h0 : ¬t.val % 8 = 0) (h1 : t.val % 8 = 7) :
    (outsAt0 m c t.val t.isLt).2.2.2.1 = (prev m c t).2.2.2.1 := by
  rw [outsAt0_C m c t h0 h1]; rfl

theorem stepC_3 (c : Dev nD) (t : Fin cfg0.N) (h0 : ¬t.val % 8 = 0) (h1 : t.val % 8 = 7) :
    (outsAt0 m c t.val t.isLt).2.2.2.2 = (prev m c t).2.2.2.2 := by
  rw [outsAt0_C m c t h0 h1]; rfl

/-- The output block the last point of a batch tile stores: from the two accumulators as that point leaves them. -/
theorem stepC_out (c : Dev nD) (t : Fin cfg0.N) (h0 : ¬t.val % 8 = 0) (h1 : t.val % 8 = 7) :
    (outsAt0 m c t.val t.isLt).1 = k0_pay1 (outsAt0 m c t.val t.isLt).2.2.1 (outsAt0 m c t.val t.isLt).2.1 := by
  rw [stepC_1 m c t h0 h1, stepC_0 m c t h0 h1, outsAt0_C m c t h0 h1]; dsimp only
  exact oC2 (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Steps
end
-- ==== Proof.ChamferSpec.lean ====
/-
  The mathematics both programs compute, over the extended reals.

  For a batch b, a video row v (of 1024) and a language row l (of 512), with feature axis d (of 512), the squared
  distance of the two rows is written in the expanded form |x|² − 2 x·y + |y|².  The two programs spell it
  differently: one scales the video row by −2 BEFORE the product and adds the two squared norms afterwards
  (`distK`), the other takes the plain product, doubles it and subtracts it from |x|², each norm a sum started
  from zero (`distR`).  Over real entries the two agree (Proof/ChamferLaw.lean).

  The result for batch b is the mean over the video rows of each row's nearest language row, plus the mean over
  the language rows of each row's nearest video row (`chamfer`): two sums of minima, one divided by 1024, the other
  by 512.  A minimum over a finite index type is `Finset.univ.inf` (the extended reals are a complete lattice, the
  empty minimum +∞).
-/
import Idealize.ShloMosaic.PureOps.Ideal
import Idealize.ShloMosaic.Lib.ValueIdx

noncomputable section

namespace Cert.Chamfer

open Idealize.ShloMosaic Idealize.ShloMosaic.ValueIdx

/-- The video features: 64 batches of 1024 rows of 512 entries. -/
abbrev XArr : Type := (⟨3, ![64, 1024, 512]⟩ : Shape).Idx → EReal
/-- The language features: 64 batches of 512 rows of 512 entries. -/
abbrev YArr : Type := (⟨3, ![64, 512, 512]⟩ : Shape).Idx → EReal

/-- The squared norm of video row (b, v). -/
def sqX (x : XArr) (b : Fin 64) (v : Fin 1024) : EReal := ∑ d : Fin 512, x (ix3 b v d) * x (ix3 b v d)

/-- The squared norm of language row (b, l). -/
def sqY (y : YArr) (b : Fin 64) (l : Fin 512) : EReal := ∑ d : Fin 512, y (ix3 b l d) * y (ix3 b l d)

/-- The distance as the kernel spells it: the product of the video row scaled by the constant −2 (the word
    `0xC0000000`) with the language row, plus the video row's squared norm, plus the language row's. -/
def distK (x : XArr) (y : YArr) (b : Fin 64) (v : Fin 1024) (l : Fin 512) : EReal :=
  (∑ d : Fin 512, (x (ix3 b v d) * Ideal.ofBits .f32 0xC0000000#32) * y (ix3 b l d)) + sqX x b v + sqY y b l

/-- The distance as the reference spells it: (0 + |x|²) − 2 · (x·y), plus (0 + |y|²); the constant 2 is the word
    `0x40000000`, each zero the word `0x00000000`. -/
def distR (x : XArr) (y : YArr) (b : Fin 64) (v : Fin 1024) (l : Fin 512) : EReal :=
  ((Ideal.ofBits .f32 0x00000000#32 + sqX x b v)
      - Ideal.ofBits .f32 0x40000000#32 * (∑ d : Fin 512, x (ix3 b v d) * y (ix3 b l d)))
    + (Ideal.ofBits .f32 0x00000000#32 + sqY y b l)

/-- The two-sided mean of nearest distances of batch b, for any table of distances: the sum over the video rows of
    the minimum over the language rows, divided by 1024 (the word `0x44800000`), plus the sum over the language rows of
    the minimum over the video rows, divided by 512 (the word `0x44000000`). -/
def chamfer (D : Fin 64 → Fin 1024 → Fin 512 → EReal) (b : Fin 64) : EReal :=
  Ideal.div (∑ v : Fin 1024, Finset.univ.inf (fun l : Fin 512 => D b v l)) (Ideal.ofBits .f32 0x44800000#32)
    + Ideal.div (∑ l : Fin 512, Finset.univ.inf (fun v : Fin 1024 => D b v l)) (Ideal.ofBits .f32 0x44000000#32)

/-- Row r of tile k of the 1024 video rows, cut into 8 consecutive tiles of 128 rows: row 128 k + r. -/
def tileRow (k : Fin 8) (r : Fin 128) : Fin 1024 :=
  ⟨128 * k.val + r.val, by have := k.isLt; have := r.isLt; omega⟩

/-- Batch b of tile i of the 64 batches, cut into 8 consecutive tiles of 8 batches: batch 8 i + b. -/
def tileBatch (i : Fin 8) (b : Fin 8) : Fin 64 :=
  ⟨8 * i.val + b.val, by have := i.isLt; have := b.isLt; omega⟩

/-- The result vector: entry b is batch b's value. -/
def result (D : Fin 64 → Fin 1024 → Fin 512 → EReal) : (⟨1, ![64]⟩ : Shape).Idx → EReal := fun i => chamfer D (i 0)

end Cert.Chamfer

end
-- ==== Proof.KernelBlocks.lean ====
/-
  The windows' blocks as pieces of the argument arrays.

  Grid point t is batch tile t / 8 and video tile t % 8.  Its video block is the 8 batches of that batch tile by the
  128 rows of that video tile, every feature; its language block the same 8 batches, every row and feature; the
  output block the same 8 batches of the [64, 128] result.  A block's element (b, r, d) therefore sits in the array at
  batch 8 (t / 8) + b, row 128 (t % 8) + r, feature d: block index times block size plus the coordinate inside.
-/
import proofs.«178656_j9534827397593_2_alg».proof.Proof.Gen.KernelIdeal.Frame
import proofs.«178656_j9534827397593_2_alg».proof.Proof.ChamferSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Chamfer

variable {F : FTy → Type} [FloatOps F]
variable (m : (ℓ : Loc nD τ sig) → Buf (Elt F) ℓ)

/-- The batch tile of grid position n (a total function of the position). -/
def bt (n : ℕ) : Fin 8 := ⟨n / 8 % 8, Nat.mod_lt _ (by decide)⟩
/-- The video tile of grid position n. -/
def vt (n : ℕ) : Fin 8 := ⟨n % 8, Nat.mod_lt _ (by decide)⟩

/-- The index maps over the grid, decided once: the video window moves with both grid axes, the language window and
    the output window with the batch axis only. -/
theorem idx_video : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx_lang : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx_out : ∀ t : Fin cfg0.N, win0_2.index t 0 = t.val / 8 ∧ win0_2.index t 1 = 0 :=
  (by decide +kernel : ∀ t : Fin grid0.N, win0_2.index t 0 = t.val / 8 ∧ win0_2.index t 1 = 0)

/-- The video block of point t at (b, r, d) is the video array at (8 (t/8) + b, 128 (t%8) + r, d). -/
theorem xblk_apply (c : Dev nD) (t : Fin cfg0.N) (b : Fin 8) (r : Fin 128) (d : Fin 512) :
    (iblk m c 0 t : Vec F S8x128x512 .f32) (ix3 b r d)
      = m ((c : Thread nD τ).loc main_arg0) (ix3 (tileBatch (bt t.val) b) (tileRow (vt t.val) r) d) := by
  have hN : t.val < 64 := lt_of_lt_of_eq t.isLt (show cfg0.N = 64 from N_0)
  unfold iblk
  rw [View.read_apply]
  show V m c main_arg0 _ = m (c.tc.loc main_arg0) _
  unfold V
  refine congrArg _ (funext fun a => Fin.ext ?_)
  match a with
  | ⟨0, _⟩ => show win0_0.index t 0 * 8 + 1 * b.val = 8 * (t.val / 8 % 8) + b.val; rw [(idx_video t).1]; omega
  | ⟨1, _⟩ => show win0_0.index t 1 * 128 + 1 * r.val = 128 * (t.val % 8) + r.val; rw [(idx_video t).2.1]; omega
  | ⟨2, _⟩ => show win0_0.index t 2 * 512 + 1 * d.val = d.val; rw [(idx_video t).2.2]; omega

/-- The language block of point t at (b, l, d) is the language array at (8 (t/8) + b, l, d). -/
theorem yblk_apply (c : Dev nD) (t : Fin cfg0.N) (b : Fin 8) (l : Fin 512) (d : Fin 512) :
    (iblk m c 1 t : Vec F S8x512x512 .f32) (ix3 b l d)
      = m ((c : Thread nD τ).loc main_arg1) (ix3 (tileBatch (bt t.val) b) l d) := by
  have hN : t.val < 64 := lt_of_lt_of_eq t.isLt (show cfg0.N = 64 from N_0)
  unfold iblk
  rw [View.read_apply]
  show V m c main_arg1 _ = m (c.tc.loc main_arg1) _
  unfold V
  refine congrArg _ (funext fun a => Fin.ext ?_)
  match a with
  | ⟨0, _⟩ => show win0_1.index t 0 * 8 + 1 * b.val = 8 * (t.val / 8 % 8) + b.val; rw [(idx_lang t).1]; omega
  | ⟨1, _⟩ => show win0_1.index t 1 * 512 + 1 * l.val = l.val; rw [(idx_lang t).2.1]; omega
  | ⟨2, _⟩ => show win0_1.index t 2 * 512 + 1 * d.val = d.val; rw [(idx_lang t).2.2]; omega

end Cert.KernelIdeal.Blocks

end
-- ==== Proof.PayDist.lean ====
/-
  The kernel's payloads read at an index, over the extended reals.

  The distance table entry (b, r, l) of one tile is the contraction over the 512 features of the video row
  scaled by the constant −2 against the language row, plus the video row's squared norm (a sum over the lane
  axis, kept as a unit column and spread back over the 512 language rows), plus the language row's stored
  squared norm (a row spread over the 128 video rows).  The stored squared norm of a language row is the sum over
  the lane axis of its squares; the stored low-precision copy of the language block is the block itself (the
  format change is the identity on extended reals); the two running accumulators start at +∞ and at 0.
-/
import proofs.«178656_j9534827397593_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Chamfer.Pay

open Idealize.ShloMosaic Idealize.ShloMosaic.ValueIdx Cert.KernelIdeal Cert.KernelIdeal.Gen

/-! ## The sum over the lane axis -/

/-- The sum over the last axis of an [8,128,512] array, read at (b, r): the sum over d of the entry (b, r, d). -/
theorem laneSum_8x128 (src : FVec Ideal S8x128x512 .f32) (h : S8x128x512.Reduces [2] S8x128)
    (hφ : FKind.Formats .f32) (hacc : (0x00000000#32 : BitVec 32) = 0x00000000#32) (b : Fin 8) (r : Fin 128) :
    multiReduction .add [2] S8x128 src 0x00000000#32 h hφ hacc (ix2 b r) = ∑ d : Fin 512, src (ix3 b r d) := by
  refine (Ideal.multiReduction_add_single src _ h hφ hacc _).trans ?_
  exact Finset.sum_congr rfl fun k _ => congrArg src (funext fun c => Fin.ext (by fin_cases c <;> rfl))

/-- The sum over the last axis of an [8,512,512] array, read at (b, l): the sum over d of the entry (b, l, d). -/
theorem laneSum_8x512 (src : FVec Ideal S8x512x512 .f32) (h : S8x512x512.Reduces [2] S8x512)
    (hφ : FKind.Formats .f32) (hacc : (0x00000000#32 : BitVec 32) = 0x00000000#32) (b : Fin 8) (l : Fin 512) :
    multiReduction .add [2] S8x512 src 0x00000000#32 h hφ hacc (ix2 b l) = ∑ d : Fin 512, src (ix3 b l d) := by
  refine (Ideal.multiReduction_add_single src _ h hφ hacc _).trans ?_
  exact Finset.sum_congr rfl fun k _ => congrArg src (funext fun c => Fin.ext (by fin_cases c <;> rfl))

/-! ## A column of row values spread over the lanes, a row of lane values spread over the rows -/

section Layout
variable {α : Type}

/-- An [8,128] array kept as a unit column [8,128,1] and spread over 512 lanes reads, at (b, r, l), its entry (b, r). -/
theorem colSpread_apply (v : S8x128.Idx → α) (hc : S8x128.ShapeCasts S8x128x1) (hb : S8x128x1.Broadcasts S8x128x512)
    (b : Fin 8) (r : Fin 128) (l : Fin 512) :
    broadcastTo S8x128x512 (shapeCast S8x128x1 v hc) hb (ix3 b r l) = v (ix2 b r) := by
  refine (broadcastTo_apply (shapeCast S8x128x1 v hc) hb (ix3 b r l) (ix3 b r (0 : Fin 1)) fun a => ?_).trans ?_
  · match a with
    | ⟨0, _⟩ => rfl
    | ⟨1, _⟩ => rfl
    | ⟨2, _⟩ => rfl
  · refine shapeCast_apply v hc (ix3 b r (0 : Fin 1)) (ix2 b r) ?_
    rw [Shape.rowMajor_val_two, Shape.rowMajor_val_three]
    show b.val * 128 + r.val = (b.val * 128 + r.val) * 1 + 0
    omega

/-- An [8,512] array viewed as [8,1,512] and spread over 128 rows reads, at (b, r, l), its entry (b, l). -/
theorem rowSpread_apply (v : S8x512.Idx → α) (hc : S8x512.ShapeCasts S8x1x512) (hb : S8x1x512.Broadcasts S8x128x512)
    (b : Fin 8) (r : Fin 128) (l : Fin 512) :
    broadcastTo S8x128x512 (shapeCast S8x1x512 v hc) hb (ix3 b r l) = v (ix2 b l) := by
  refine (broadcastTo_apply (shapeCast S8x1x512 v hc) hb (ix3 b r l) (ix3 b (0 : Fin 1) l) fun a => ?_).trans ?_
  · match a with
    | ⟨0, _⟩ => rfl
    | ⟨1, _⟩ => rfl
    | ⟨2, _⟩ => rfl
  · refine shapeCast_apply v hc (ix3 b (0 : Fin 1) l) (ix2 b l) ?_
    rw [Shape.rowMajor_val_two, Shape.rowMajor_val_three]
    show b.val * 512 + l.val = (b.val * 1 + 0) * 512 + l.val
    omega

end Layout

/-! ## The contraction over the feature axis -/

theorem dotLhs_0 (i : S8x128x512.Idx) (q : dot_S8x128x512_S8x512x512_S8x128x512_2_2_1_1_0_0.contr.Idx) :
    (dot_S8x128x512_S8x512x512_S8x128x512_2_2_1_1_0_0.lhsIdx i q 0).val = (i 0).val := by
  unfold DotDims.lhsIdx
  rw [dif_pos (show (0 : Fin S8x128x512.rank) ∈ dot_S8x128x512_S8x512x512_S8x128x512_2_2_1_1_0_0.lhsBatch by decide)]
  rfl
theorem dotLhs_1 (i : S8x128x512.Idx) (q : dot_S8x128x512_S8x512x512_S8x128x512_2_2_1_1_0_0.contr.Idx) :
    (dot_S8x128x512_S8x512x512_S8x128x512_2_2_1_1_0_0.lhsIdx i q 1).val = (i 1).val := by
  unfold DotDims.lhsIdx
  rw [dif_neg (show ¬(1 : Fin S8x128x512.rank) ∈ dot_S8x128x512_S8x512x512_S8x128x512_2_2_1_1_0_0.lhsBatch by decide), dif_pos (show (1 : Fin S8x128x512.rank) ∈ dot_S8x128x512_S8x512x512_S8x128x512_2_2_1_1_0_0.lhsNonContracting by decide)]
  rfl
theorem dotLhs_2 (i : S8x128x512.Idx) (q : dot_S8x128x512_S8x512x512_S8x128x512_2_2_1_1_0_0.contr.Idx) :
    (dot_S8x128x512_S8x512x512_S8x128x512_2_2_1_1_0_0.lhsIdx i q 2).val = (q ⟨0, by decide⟩).val :=
  dot_S8x128x512_S8x512x512_S8x128x512_2_2_1_1_0_0.lhsIdx_val_of_single rfl i q
theorem dotRhs_0 (i : S8x128x512.Idx) (q : dot_S8x128x512_S8x512x512_S8x128x512_2_2_1_1_0_0.contr.Idx) :
    (dot_S8x128x512_S8x512x512_S8x128x512_2_2_1_1_0_0.rhsIdx i q 0).val = (i 0).val := by
  unfold DotDims.rhsIdx
  rw [dif_pos (show (0 : Fin S8x512x512.rank) ∈ dot_S8x128x512_S8x512x512_S8x128x512_2_2_1_1_0_0.rhsBatch by decide)]
  rfl
theorem dotRhs_1 (i : S8x128x512.Idx) (q : dot_S8x128x512_S8x512x512_S8x128x512_2_2_1_1_0_0.contr.Idx) :
    (dot_S8x128x512_S8x512x512_S8x128x512_2_2_1_1_0_0.rhsIdx i q 1).val = (i 2).val := by
  unfold DotDims.rhsIdx
  rw [dif_neg (show ¬(1 : Fin S8x512x512.rank) ∈ dot_S8x128x512_S8x512x512_S8x128x512_2_2_1_1_0_0.rhsBatch by decide), dif_pos (show (1 : Fin S8x512x512.rank) ∈ dot_S8x128x512_S8x512x512_S8x128x512_2_2_1_1_0_0.rhsNonContracting by decide)]
  rfl
theorem dotRhs_2 (i : S8x128x512.Idx) (q : dot_S8x128x512_S8x512x512_S8x128x512_2_2_1_1_0_0.contr.Idx) :
    (dot_S8x128x512_S8x512x512_S8x128x512_2_2_1_1_0_0.rhsIdx i q 2).val = (q ⟨0, by decide⟩).val :=
  dot_S8x128x512_S8x512x512_S8x128x512_2_2_1_1_0_0.rhsIdx_val_of_single rfl i q

/-- The batched product into the zero accumulator, read at (b, r, l): the sum over the feature d of the left operand at
    (b, r, d) times the right operand at (b, l, d). -/
theorem featDot_apply (lhs : FVec Ideal S8x128x512 .bf16) (rhs : FVec Ideal S8x512x512 .bf16) (b : Fin 8) (r : Fin 128) (l : Fin 512) :
    matmul dot_S8x128x512_S8x512x512_S8x128x512_2_2_1_1_0_0 none lhs rhs (constant (F := Ideal) S8x128x512 .f32 0x00000000#32) (ix3 b r l)
      = ∑ d : Fin 512, lhs (ix3 b r d) * rhs (ix3 b l d) := by
  refine (Ideal.matmul_constant_zero_apply dot_S8x128x512_S8x512x512_S8x128x512_2_2_1_1_0_0 none lhs rhs (ix3 b r l)).trans ?_
  rw [← Equiv.sum_comp (contrEquiv1 dot_S8x128x512_S8x512x512_S8x128x512_2_2_1_1_0_0 512 rfl rfl).symm]
  refine Finset.sum_congr rfl fun k _ => ?_
  have hk := contrEquiv1_symm_val dot_S8x128x512_S8x512x512_S8x128x512_2_2_1_1_0_0 512 rfl rfl k
  have el : dot_S8x128x512_S8x512x512_S8x128x512_2_2_1_1_0_0.lhsIdx (ix3 b r l) ((contrEquiv1 dot_S8x128x512_S8x512x512_S8x128x512_2_2_1_1_0_0 512 rfl rfl).symm k) = ix3 b r k := funext fun a => Fin.ext (by
    match a with
    | ⟨0, _⟩ => exact dotLhs_0 _ _
    | ⟨1, _⟩ => exact dotLhs_1 _ _
    | ⟨2, _⟩ => exact (dotLhs_2 _ _).trans hk)
  have er : dot_S8x128x512_S8x512x512_S8x128x512_2_2_1_1_0_0.rhsIdx (ix3 b r l) ((contrEquiv1 dot_S8x128x512_S8x512x512_S8x128x512_2_2_1_1_0_0 512 rfl rfl).symm k) = ix3 b l k := funext fun a => Fin.ext (by
    match a with
    | ⟨0, _⟩ => exact dotRhs_0 _ _
    | ⟨1, _⟩ => exact dotRhs_1 _ _
    | ⟨2, _⟩ => exact (dotRhs_2 _ _).trans hk)
  rw [el, er]

/-! ## The payloads -/

/-- The distance table's entry (b, r, l): the product of the scaled video row with the language row, plus the video row's
    squared norm, plus the language row's stored squared norm. -/
theorem pay6_apply (x0 : Vec Ideal S8x128x512 .f32) (yb : Vec Ideal S8x512x512 .bf16) (bs : Vec Ideal S8x512 .f32)
    (b : Fin 8) (r : Fin 128) (l : Fin 512) :
    k0_pay6 (F := Ideal) x0 yb bs (ix3 b r l)
      = (∑ d : Fin 512, (x0 (ix3 b r d) * Ideal.ofBits .f32 0xC0000000#32) * yb (ix3 b l d))
        + (∑ d : Fin 512, x0 (ix3 b r d) * x0 (ix3 b r d)) + bs (ix2 b l) := by
  unfold k0_pay6
  simp only []
  rw [addf_apply, addf_apply, featDot_apply, colSpread_apply, rowSpread_apply, laneSum_8x128]
  rfl

/-- The stored squared norm of language row (b, l): the sum over the features of its squares. -/
theorem pay4_apply (y1 : Vec Ideal S8x512x512 .f32) (b : Fin 8) (l : Fin 512) :
    k0_pay4 (F := Ideal) y1 (ix2 b l) = ∑ d : Fin 512, y1 (ix3 b l d) * y1 (ix3 b l d) := by
  unfold k0_pay4
  simp only []
  rw [shapeCast_self, laneSum_8x512]
  rfl

/-- The stored low-precision copy of the language block is the block. -/
theorem pay5_eq (y1 : Vec Ideal S8x512x512 .f32) : k0_pay5 (F := Ideal) y1 = y1 := by
  unfold k0_pay5
  simp only []
  rw [shapeCast_self]
  rfl

/-- The running minimum over the video rows starts at +∞ (the word 0x7F800000). -/
theorem pay2_apply (i : S8x512.Idx) : k0_pay2 (F := Ideal) i = Ideal.ofBits .f32 0x7F800000#32 := by
  unfold k0_pay2
  rw [shapeCast_self]
  rfl

/-- The running sum of row minima starts at 0. -/
theorem pay3_apply (i : S8x1.Idx) : k0_pay3 (F := Ideal) i = 0 := by
  unfold k0_pay3
  rw [shapeCast_self]
  exact Ideal.ofBits_zero_f32

end Cert.Chamfer.Pay

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.PayReduce.lean ====
/-
  The three reductions of the kernel body, read at an index over the extended reals.

  The body holds an `[8, 128, 512]` block of distances (batch, video row, language row), kept opaque here. From it:
  • the running column `[8, 1]` gains, at batch b, the sum over the 128 video rows of each row's minimum over the 512
    language rows;
  • the running table `[8, 512]` becomes, at (b, l), the minimum of its old entry and the minimum over the 128 video
    rows of the distances to language row l;
  • the final value at (b, j), for every lane j of 128, is the column's entry at b divided by 1024 plus the sum over l
    of the table's row b divided by 512.
  A minimum along one axis started from +∞ (the word `0x7F800000`) is a fold of `min` from the top element, which is
  the infimum over that axis's coordinates; a sum along one axis is the sum over its coordinates.
-/
import proofs.«178656_j9534827397593_2_alg».proof.Proof.Gen.KernelIdeal.Skeleton
import proofs.«178656_j9534827397593_2_alg».proof.Proof.LibRowOps
import Idealize.ShloMosaic.Lib.ValueIdx
import Idealize.ShloMosaic.Lib.Pipeline.Value
import Idealize.ShloMosaic.PureOps.Ideal.Laws
import Idealize.ShloMosaic.PureOps.Reduce

noncomputable section

namespace Cert.Chamfer.Pay2

open Idealize.ShloMosaic Idealize.ShloMosaic.ValueIdx Cert.KernelIdeal Cert.KernelIdeal.Gen

/-- The word `0x7F800000` denotes `+∞`, the top of the extended reals. -/
theorem ofBits_inf : Ideal.ofBits .f32 0x7F800000#32 = (⊤ : EReal) := by
  simp [Ideal.ofBits, Ideal.ieee]

/-- A minimum along ONE axis, read at the extended reals: the fold of `min` from the accumulator's value over that
    axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from `+∞` over a finite index type is the infimum over it. -/
theorem fold_min_top {n : ℕ} (f : Fin n → EReal) :
    (Finset.univ : Finset (Fin n)).fold min (Ideal.ofBits .f32 0x7F800000#32) f = Finset.univ.inf f := by
  rw [ofBits_inf]; rfl

/-- The minimum over the last axis of an `[8, 128, 512]` block, at `(b, r)`: the infimum over `l` of the entries
    `(b, r, l)`. -/
theorem minAxis2 (D : FVec Ideal S8x128x512 .f32) (b : Fin 8) (r : Fin 128) :
    multiReduction .minimumf [2] S8x128 D 0x7F800000#32 reduces_S8x128x512_S8x128 (.inl rfl) rfl (ix2 b r)
      = Finset.univ.inf fun l : Fin 512 => D (ix3 b r l) := by
  refine (multiReduction_minimumf_single D 0x7F800000#32 reduces_S8x128x512_S8x128 (.inl rfl) rfl (ix2 b r)).trans ?_
  have hf : (D ∘ reduces_S8x128x512_S8x128.lift (ix2 b r)) = fun l : Fin 512 => D (ix3 b r l) :=
    funext fun l => congrArg D (funext fun c => Fin.ext (by fin_cases c <;> rfl))
  rw [hf]
  exact fold_min_top fun l : Fin 512 => D (ix3 b r l)

/-- The minimum over the middle axis of an `[8, 128, 512]` block, at `(b, l)`: the infimum over `r` of the entries
    `(b, r, l)`. -/
theorem minAxis1 (D : FVec Ideal S8x128x512 .f32) (b : Fin 8) (l : Fin 512) :
    multiReduction .minimumf [1] S8x512 D 0x7F800000#32 reduces_S8x128x512_S8x512 (.inl rfl) rfl (ix2 b l)
      = Finset.univ.inf fun r : Fin 128 => D (ix3 b r l) := by
  refine (multiReduction_minimumf_single D 0x7F800000#32 reduces_S8x128x512_S8x512 (.inl rfl) rfl (ix2 b l)).trans ?_
  have hf : (D ∘ reduces_S8x128x512_S8x512.lift (ix2 b l)) = fun r : Fin 128 => D (ix3 b r l) :=
    funext fun r => congrArg D (funext fun c => Fin.ext (by fin_cases c <;> rfl))
  rw [hf]
  exact fold_min_top fun r : Fin 128 => D (ix3 b r l)

/-- The new column at batch `b`: the old entry plus the sum over the 128 video rows of each row's minimum distance
    over the 512 language rows. -/
theorem pay7_apply (x0 : Vec Ideal S8x128x512 .f32) (yb : Vec Ideal S8x512x512 .bf16) (bs : Vec Ideal S8x512 .f32)
    (s1 : Vec Ideal S8x1 .f32) (b : Fin 8) :
    k0_pay7 (F := Ideal) x0 yb bs s1 (ix2 b (0 : Fin 1))
      = s1 (ix2 b (0 : Fin 1))
          + ∑ r : Fin 128, Finset.univ.inf (fun l : Fin 512 => k0_pay6 (F := Ideal) x0 yb bs (ix3 b r l)) := by
  unfold k0_pay7
  refine (congrFun (shapeCast_self _ shapeCasts_S8x1_S8x1) (ix2 b (0 : Fin 1))).trans ?_
  refine congrArg (fun t => s1 (ix2 b (0 : Fin 1)) + t) ?_
  refine (Cert.RowOps.shapeCast_a_a1_apply _ shapeCasts_S8_S8x1 b (0 : Fin 1)).trans ?_
  refine (Cert.RowOps.multiReduction_add_row _ 0x00000000#32 reduces_S8x128_S8 (.inl rfl) rfl b).trans ?_
  exact Finset.sum_congr rfl fun r _ => minAxis2 _ b r

/-- The new table at `(b, l)`: the minimum of the old entry and the minimum over the 128 video rows of the distance
    to language row `l`. -/
theorem pay8_apply (x0 : Vec Ideal S8x128x512 .f32) (yb : Vec Ideal S8x512x512 .bf16) (bs : Vec Ideal S8x512 .f32)
    (s0 : Vec Ideal S8x512 .f32) (b : Fin 8) (l : Fin 512) :
    k0_pay8 (F := Ideal) x0 yb bs s0 (ix2 b l)
      = min (s0 (ix2 b l)) (Finset.univ.inf (fun r : Fin 128 => k0_pay6 (F := Ideal) x0 yb bs (ix3 b r l))) := by
  unfold k0_pay8
  refine (congrFun (shapeCast_self _ shapeCasts_S8x512_S8x512) (ix2 b l)).trans ?_
  exact congrArg (fun t => min (s0 (ix2 b l)) t) (minAxis1 _ b l)

/-- The final value at `(b, j)`, the same for every lane `j`: the column's entry at `b` divided by 1024 (the word
    `0x44800000`) plus the sum of the table's row `b` divided by 512 (the word `0x44000000`). -/
theorem pay1_apply (s1 : Vec Ideal S8x1 .f32) (s0 : Vec Ideal S8x512 .f32) (b : Fin 8) (j : Fin 128) :
    k0_pay1 (F := Ideal) s1 s0 (ix2 b j)
      = Ideal.div (s1 (ix2 b (0 : Fin 1))) (Ideal.ofBits .f32 0x44800000#32)
          + Ideal.div (∑ l : Fin 512, s0 (ix2 b l)) (Ideal.ofBits .f32 0x44000000#32) := by
  unfold k0_pay1
  refine (Cert.RowOps.broadcastTo_a1_ab_apply _ broadcasts_S8x1_S8x128 b j).trans ?_
  refine (congrFun (shapeCast_self _ shapeCasts_S8x1_S8x1) (ix2 b (0 : Fin 1))).trans ?_
  refine congrArg (fun t => Ideal.div (s1 (ix2 b (0 : Fin 1))) (Ideal.ofBits .f32 0x44800000#32)
      + Ideal.div t (Ideal.ofBits .f32 0x44000000#32)) ?_
  refine (Cert.RowOps.shapeCast_a_a1_apply _ shapeCasts_S8_S8x1 b (0 : Fin 1)).trans ?_
  exact Cert.RowOps.multiReduction_add_row _ 0x00000000#32 reduces_S8x512_S8 (.inl rfl) rfl b

end Cert.Chamfer.Pay2

end
-- ==== Proof.ChamferLaw.lean ====
/-
  The laws of the two-sided mean of nearest distances that do not depend on any program.

  * The float words the two programs spell denote −2, 2 and +∞.
  * Over real entries the two spellings of the squared distance agree: scaling the video row by −2 before the
    product and adding the norms is the same as subtracting twice the plain product from |x|² and adding |y|².
  * A sum, or a minimum, over the 1024 video rows is the sum, or the minimum, over the 8 tiles of the sums, or the
    minima, over each tile's 128 rows.
  * The initial segments {k | k ≤ n} of the 8 tiles grow by one tile at a time and end at the whole set.
-/
import proofs.«178656_j9534827397593_2_alg».proof.Proof.ChamferSpec
import Idealize.ShloMosaic.PureOps.Ideal
import Idealize.ShloMosaic.PureOps.Ideal.Laws
import Mathlib.Data.EReal.Inv
import Mathlib.Data.Fintype.Lattice

noncomputable section

namespace Cert.Chamfer

open Idealize.ShloMosaic Idealize.ShloMosaic.ValueIdx

/-- The word `0xC0000000` denotes the real −2. -/
theorem ofBits_neg_two : Ideal.ofBits .f32 0xC0000000#32 = ((-2 : ℝ) : EReal) := by
  simp [Ideal.ofBits, Ideal.ieee, -EReal.coe_mul]; norm_num

/-- The word `0x40000000` denotes the real 2. -/
theorem ofBits_two : Ideal.ofBits .f32 0x40000000#32 = ((2 : ℝ) : EReal) := by
  simp [Ideal.ofBits, Ideal.ieee, -EReal.coe_mul]; norm_num

/-- The word `0x7F800000` denotes +∞. -/
theorem ofBits_inf : Ideal.ofBits .f32 0x7F800000#32 = (⊤ : EReal) := by
  simp [Ideal.ofBits, Ideal.ieee]

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real entries the two spellings of the squared distance agree. -/
theorem distK_eq_distR (x : XArr) (y : YArr) (hx : ∀ i, ∃ r : ℝ, x i = (r : EReal))
    (hy : ∀ i, ∃ r : ℝ, y i = (r : EReal)) : distK x y = distR x y := by
  choose xr hxr using hx
  choose yr hyr using hy
  funext b v l
  simp only [distK, distR, sqX, sqY, hxr, hyr, ofBits_neg_two, ofBits_two, Ideal.ofBits_zero_f32]
  simp only [← EReal.coe_mul, ← coe_sum, ← EReal.coe_zero, ← EReal.coe_add, ← EReal.coe_sub]
  congr 1
  rw [Finset.mul_sum]
  have h : ∀ d : Fin 512, xr (ix3 b v d) * (-2) * yr (ix3 b l d) = -(2 * (xr (ix3 b v d) * yr (ix3 b l d))) :=
    fun d => by ring
  simp only [h, Finset.sum_neg_distrib]
  ring

/-- The 8 tiles of 128 rows enumerate the 1024 rows. -/
def tileEquiv : (Fin 8 × Fin 128) ≃ Fin 1024 where
  toFun p := tileRow p.1 p.2
  invFun v := (⟨v.val / 128, by have := v.isLt; omega⟩, ⟨v.val % 128, by omega⟩)
  left_inv p := by
    obtain ⟨k, r⟩ := p
    have := k.isLt; have := r.isLt
    apply Prod.ext <;> apply Fin.ext <;> simp only [tileRow] <;> omega
  right_inv v := by
    apply Fin.ext; simp only [tileRow]; omega

/-- A sum over the 1024 rows is the sum over the tiles of the sums over each tile's rows. -/
theorem sum_tiles (f : Fin 1024 → EReal) : ∑ v : Fin 1024, f v = ∑ k : Fin 8, ∑ r : Fin 128, f (tileRow k r) := by
  rw [← Equiv.sum_comp tileEquiv f, Fintype.sum_prod_type]
  rfl

/-- A minimum over the 1024 rows is the minimum over the tiles of the minima over each tile's rows. -/
theorem inf_tiles (f : Fin 1024 → EReal) :
    Finset.univ.inf f = Finset.univ.inf (fun k : Fin 8 => Finset.univ.inf (fun r : Fin 128 => f (tileRow k r))) := by
  simp only [Finset.inf_univ_eq_iInf]
  rw [← Equiv.iInf_comp (e := tileEquiv), iInf_prod]
  rfl

/-- The tiles up to tile 0 are tile 0 alone. -/
theorem filter_le_zero : (Finset.univ.filter fun k : Fin 8 => k.val ≤ 0) = {(0 : Fin 8)} := by
  ext k
  simp only [Finset.mem_filter, Finset.mem_univ, true_and, Finset.mem_singleton, Fin.ext_iff, Fin.val_zero]
  omega

/-- The tiles up to tile n + 1 are tile n + 1 and the tiles up to tile n. -/
theorem filter_le_succ (n : ℕ) (h : n + 1 < 8) :
    (Finset.univ.filter fun k : Fin 8 => k.val ≤ n + 1)
      = insert (⟨n + 1, h⟩ : Fin 8) (Finset.univ.filter fun k : Fin 8 => k.val ≤ n) := by
  ext k
  simp only [Finset.mem_filter, Finset.mem_univ, true_and, Finset.mem_insert, Fin.ext_iff]
  omega

/-- Tile n + 1 is not among the tiles up to tile n. -/
theorem not_mem_filter_le (n : ℕ) (h : n + 1 < 8) :
    (⟨n + 1, h⟩ : Fin 8) ∉ Finset.univ.filter fun k : Fin 8 => k.val ≤ n := by
  simp only [Finset.mem_filter, Finset.mem_univ, true_and]
  omega

/-- The tiles up to tile 7 are all the tiles. -/
theorem filter_le_seven : (Finset.univ.filter fun k : Fin 8 => k.val ≤ 7) = Finset.univ := by
  ext k
  have := k.isLt
  simp only [Finset.mem_filter, Finset.mem_univ, true_and, iff_true]
  omega

end Cert.Chamfer

end
-- ==== Proof.KernelInvariant.lean ====
/-
  The accumulators along a batch tile, at the ideal values.

  Fix a batch tile and write D for the kernel's distance table (Proof/ChamferSpec.lean's distK of the two argument
  arrays).  After the point of video tile k the four scratch buffers hold, for each of the tile's 8 batches:
    the minimum of D over the video rows of tiles 0 … k, for every language row (the running column minimum);
    the sum over those video rows of the row's minimum of D over the language rows (the running row sum);
    the squared norm of every language row; and the language block itself.
  The first point of the tile establishes this from +∞ and 0 (a minimum with +∞ and a sum with 0 change nothing), each
  later point extends the range of tiles by one: a minimum over an index set with one more tile is the minimum of the
  old minimum and the new tile's, and likewise for the sum.  After the last point the range is all 8 tiles, that is,
  all 1024 video rows, and the output block that point stores is the two-sided mean of the specification.
-/
import proofs.«178656_j9534827397593_2_alg».proof.Proof.KernelSteps
import proofs.«178656_j9534827397593_2_alg».proof.Proof.KernelBlocks
import proofs.«178656_j9534827397593_2_alg».proof.Proof.PayDist
import proofs.«178656_j9534827397593_2_alg».proof.Proof.PayReduce
import proofs.«178656_j9534827397593_2_alg».proof.Proof.ChamferLaw

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Steps Cert.KernelIdeal.Blocks Cert.Chamfer Cert.Chamfer.Pay Cert.Chamfer.Pay2

variable (m : (ℓ : Loc nD τ sig) → Buf (Elt Ideal) ℓ)

/-- The two argument arrays of core `c`, and the kernel's distance table over them. -/
abbrev X (c : Dev nD) : XArr := m ((c : Thread nD τ).loc main_arg0)
abbrev Y (c : Dev nD) : YArr := m ((c : Thread nD τ).loc main_arg1)
abbrev D (c : Dev nD) : Fin 64 → Fin 1024 → Fin 512 → EReal := distK (X m c) (Y m c)

/-- The distances of one point's block: with the language scratch holding the batch tile's language block and its
    squared norms, entry (b, r, l) of the block the body computes is D at batch 8 (t/8) + b, video row
    128 (t%8) + r, language row l. -/
theorem dist_block (c : Dev nD) (t : Fin cfg0.N) (yb : Vec Ideal S8x512x512 .bf16) (bs : Vec Ideal S8x512 .f32)
    (hy : ∀ (b : Fin 8) (l d : Fin 512), yb (ix3 b l d) = Y m c (ix3 (tileBatch (bt t.val) b) l d))
    (hb : ∀ (b : Fin 8) (l : Fin 512), bs (ix2 b l) = sqY (Y m c) (tileBatch (bt t.val) b) l)
    (b : Fin 8) (r : Fin 128) (l : Fin 512) :
    k0_pay6 (F := Ideal) (xblk m c t) yb bs (ix3 b r l) = D m c (tileBatch (bt t.val) b) (tileRow (vt t.val) r) l := by
  rw [pay6_apply, hb]
  have hx : ∀ d : Fin 512, xblk m c t (ix3 b r d) = X m c (ix3 (tileBatch (bt t.val) b) (tileRow (vt t.val) r) d) :=
    fun d => xblk_apply m c t b r d
  simp only [hx, hy]
  rfl

/-- The state of the four scratch buffers after grid position `n`. -/
def InvAt (c : Dev nD) (n : ℕ) (s0 : Vec Ideal S8x512 .f32) (s1 : Vec Ideal S8x1 .f32) (s2 : Vec Ideal S8x512 .f32)
    (s3 : Vec Ideal S8x512x512 .bf16) : Prop :=
  (∀ (b : Fin 8) (l : Fin 512), s0 (ix2 b l)
      = (Finset.univ.filter fun k : Fin 8 => k.val ≤ n % 8).inf fun k =>
          Finset.univ.inf fun r : Fin 128 => D m c (tileBatch (bt n) b) (tileRow k r) l)
  ∧ (∀ b : Fin 8, s1 (ix2 b (0 : Fin 1))
      = ∑ k ∈ Finset.univ.filter (fun k : Fin 8 => k.val ≤ n % 8), ∑ r : Fin 128,
          Finset.univ.inf fun l : Fin 512 => D m c (tileBatch (bt n) b) (tileRow k r) l)
  ∧ (∀ (b : Fin 8) (l : Fin 512), s2 (ix2 b l) = sqY (Y m c) (tileBatch (bt n) b) l)
  ∧ (∀ (b : Fin 8) (l d : Fin 512), s3 (ix3 b l d) = Y m c (ix3 (tileBatch (bt n) b) l d))

/-- The language-side scratch as the first point of a tile fills it. -/
theorem lang_block (c : Dev nD) (t : Fin cfg0.N) :
    (∀ (b : Fin 8) (l d : Fin 512), k0_pay5 (F := Ideal) (yblk m c t) (ix3 b l d) = Y m c (ix3 (tileBatch (bt t.val) b) l d))
    ∧ (∀ (b : Fin 8) (l : Fin 512), k0_pay4 (F := Ideal) (yblk m c t) (ix2 b l) = sqY (Y m c) (tileBatch (bt t.val) b) l) := by
  have hyb : ∀ (b : Fin 8) (l d : Fin 512), yblk m c t (ix3 b l d) = Y m c (ix3 (tileBatch (bt t.val) b) l d) :=
    fun b l d => yblk_apply m c t b l d
  refine ⟨fun b l d => ?_, fun b l => ?_⟩
  · rw [pay5_eq]; exact hyb b l d
  · rw [pay4_apply]; simp only [hyb]; rfl

/-- After the first point of a batch tile. -/
theorem inv_first (c : Dev nD) (t : Fin cfg0.N) (h0 : t.val % 8 = 0)
    (s0 : Vec Ideal S8x512 .f32) (s1 : Vec Ideal S8x1 .f32) (s2 : Vec Ideal S8x512 .f32) (s3 : Vec Ideal S8x512x512 .bf16)
    (e0 : s0 = k0_pay8 (xblk m c t) (k0_pay5 (yblk m c t)) (k0_pay4 (yblk m c t)) (k0_pay2 (F := Ideal)))
    (e1 : s1 = k0_pay7 (xblk m c t) (k0_pay5 (yblk m c t)) (k0_pay4 (yblk m c t)) (k0_pay3 (F := Ideal)))
    (e2 : s2 = k0_pay4 (yblk m c t)) (e3 : s3 = k0_pay5 (yblk m c t)) : InvAt m c t.val s0 s1 s2 s3 := by
  subst e0 e1 e2 e3
  obtain ⟨hy, hb⟩ := lang_block m c t
  have hv : vt t.val = (0 : Fin 8) := Fin.ext (by show t.val % 8 = 0; exact h0)
  refine ⟨fun b l => ?_, fun b => ?_, hb, hy⟩
  · rw [pay8_apply, pay2_apply, Cert.Chamfer.ofBits_inf, h0, filter_le_zero, Finset.inf_singleton, ← hv]
    simp only [dist_block m c t _ _ hy hb]
    exact min_eq_right le_top
  · rw [pay7_apply, pay3_apply, zero_add, h0, filter_le_zero, Finset.sum_singleton, ← hv]
    simp only [dist_block m c t _ _ hy hb]

/-- After a later point of a batch tile, from the state the point before left. -/
theorem inv_next (c : Dev nD) (t : Fin cfg0.N) (h0 : ¬t.val % 8 = 0)
    (p0 : Vec Ideal S8x512 .f32) (p1 : Vec Ideal S8x1 .f32) (p2 : Vec Ideal S8x512 .f32) (p3 : Vec Ideal S8x512x512 .bf16)
    (ih : InvAt m c (t.val - 1) p0 p1 p2 p3)
    (s0 : Vec Ideal S8x512 .f32) (s1 : Vec Ideal S8x1 .f32) (s2 : Vec Ideal S8x512 .f32) (s3 : Vec Ideal S8x512x512 .bf16)
    (e0 : s0 = k0_pay8 (xblk m c t) p3 p2 p0) (e1 : s1 = k0_pay7 (xblk m c t) p3 p2 p1) (e2 : s2 = p2) (e3 : s3 = p3) :
    InvAt m c t.val s0 s1 s2 s3 := by
  subst e0 e1 e2 e3
  have hbt : bt (t.val - 1) = bt t.val := Fin.ext (by show (t.val - 1) / 8 % 8 = t.val / 8 % 8; omega)
  obtain ⟨n', hn1, hn2⟩ : ∃ n', t.val % 8 = n' + 1 ∧ (t.val - 1) % 8 = n' := ⟨t.val % 8 - 1, by omega, by omega⟩
  have hlt : n' + 1 < 8 := by omega
  have hv : vt t.val = (⟨n' + 1, hlt⟩ : Fin 8) := Fin.ext (by show t.val % 8 = n' + 1; exact hn1)
  obtain ⟨i0, i1, i2, i3⟩ := ih
  rw [hbt] at i0 i1 i2 i3
  rw [hn2] at i0 i1
  refine ⟨fun b l => ?_, fun b => ?_, i2, i3⟩
  · rw [pay8_apply, i0 b l, hn1, filter_le_succ n' hlt, Finset.inf_insert, ← hv]
    simp only [dist_block m c t _ _ i3 i2]
    exact min_comm _ _
  · rw [pay7_apply, i1 b, hn1, filter_le_succ n' hlt, Finset.sum_insert (not_mem_filter_le n' hlt), ← hv]
    simp only [dist_block m c t _ _ i3 i2]
    exact add_comm _ _

/-- THE INVARIANT at every grid position, by induction along the grid. -/
theorem inv_all (c : Dev nD) : ∀ (n : ℕ) (h : n < cfg0.N),
    InvAt m c n (outsAt0 m c n h).2.1 (outsAt0 m c n h).2.2.1 (outsAt0 m c n h).2.2.2.1 (outsAt0 m c n h).2.2.2.2
  | 0, h => inv_first m c ⟨0, h⟩ rfl _ _ _ _ (stepA_0 m c ⟨0, h⟩ rfl (show ¬(0 % 8 = 7) by decide)) (stepA_1 m c ⟨0, h⟩ rfl (show ¬(0 % 8 = 7) by decide))
      (stepA_2 m c ⟨0, h⟩ rfl (show ¬(0 % 8 = 7) by decide)) (stepA_3 m c ⟨0, h⟩ rfl (show ¬(0 % 8 = 7) by decide))
  | n + 1, h => by
    by_cases h0 : (n + 1) % 8 = 0
    · have h1 : ¬(n + 1) % 8 = 7 := by omega
      exact inv_first m c ⟨n + 1, h⟩ h0 _ _ _ _ (stepA_0 m c ⟨n + 1, h⟩ h0 h1) (stepA_1 m c ⟨n + 1, h⟩ h0 h1)
        (stepA_2 m c ⟨n + 1, h⟩ h0 h1) (stepA_3 m c ⟨n + 1, h⟩ h0 h1)
    · have ih := inv_all c n (Nat.lt_of_succ_lt h)
      by_cases h1 : (n + 1) % 8 = 7
      · exact inv_next m c ⟨n + 1, h⟩ h0 _ _ _ _ ih _ _ _ _ (stepC_0 m c ⟨n + 1, h⟩ h0 h1) (stepC_1 m c ⟨n + 1, h⟩ h0 h1)
          (stepC_2 m c ⟨n + 1, h⟩ h0 h1) (stepC_3 m c ⟨n + 1, h⟩ h0 h1)
      · exact inv_next m c ⟨n + 1, h⟩ h0 _ _ _ _ ih _ _ _ _ (stepB_0 m c ⟨n + 1, h⟩ h0 h1) (stepB_1 m c ⟨n + 1, h⟩ h0 h1)
          (stepB_2 m c ⟨n + 1, h⟩ h0 h1) (stepB_3 m c ⟨n + 1, h⟩ h0 h1)

/-- The output block the last point of a batch tile stores: every lane of row b is the specification's value for
    batch 8 (t/8) + b. -/
theorem out_last (c : Dev nD) (t : Fin cfg0.N) (h7 : t.val % 8 = 7)
    (s0 : Vec Ideal S8x512 .f32) (s1 : Vec Ideal S8x1 .f32) (s2 : Vec Ideal S8x512 .f32) (s3 : Vec Ideal S8x512x512 .bf16)
    (hinv : InvAt m c t.val s0 s1 s2 s3) (b : Fin 8) (j : Fin 128) :
    k0_pay1 (F := Ideal) s1 s0 (ix2 b j) = chamfer (D m c) (tileBatch (bt t.val) b) := by
  obtain ⟨i0, i1, -, -⟩ := hinv
  rw [h7, filter_le_seven] at i0 i1
  rw [pay1_apply, i1 b]
  simp only [i0 b]
  unfold chamfer
  rw [sum_tiles (fun v => Finset.univ.inf fun l : Fin 512 => D m c (tileBatch (bt t.val) b) v l)]
  simp only [inf_tiles (fun v => D m c (tileBatch (bt t.val) b) v _)]

end Cert.KernelIdeal.Inv

end
-- ==== Proof.KernelRun.lean ====
/-
  The kernel's run, read: the result vector is the specification's.

  Only the last point of each batch tile writes the output block back, and what it writes is, in every lane of row b,
  the specification's value for batch 8 (t/8) + b (Proof/KernelInvariant.lean).  Block t / 8 of the [64, 128] output
  array is rows 8 (t/8) … 8 (t/8) + 7, so the eight flushing points tile the array, and after the region the array
  holds, at (b', j), batch b''s value, whatever the lane j.  The two host operations after the region take lane 0 of
  every row and drop the unit axis: the [64] result holds batch b''s value at b'.
-/
import proofs.«178656_j9534827397593_2_alg».proof.Proof.KernelInvariant
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Steps Cert.KernelIdeal.Blocks Cert.KernelIdeal.Inv Cert.Chamfer
open Cert.Chamfer.Pay Cert.Chamfer.Pay2 Idealize.ShloMosaic.StableHlo

variable (m : (ℓ : Loc nD τ sig) → Buf (Elt Ideal) ℓ) (ρ : Dev nD → PrngReg)

/-- The [64, 128] output array after the region: every lane of row b' holds batch b''s value. -/
abbrev Gout (c : Dev nD) : Vec Ideal S64x128 .f32 := fun j => chamfer (D m c) (j 0)

/-- Row y₀ of the block the last point of batch tile t / 8 stores is row 8 (t/8) + y₀ of that array. -/
theorem out_row (c : Dev nD) (t : Fin cfg0.N) (h7 : t.val % 8 = 7) (y : S8x128.Idx) (i : S64x128.Idx)
    (hi : (i 0).val = t.val / 8 * 8 + 1 * (y 0).val) :
    k0_pay1 (F := Ideal) (outsAt0 m c t.val t.isLt).2.2.1 (outsAt0 m c t.val t.isLt).2.1 y = Gout m c i := by
  have hN : t.val < 64 := lt_of_lt_of_eq t.isLt (show cfg0.N = 64 from N_0)
  obtain ⟨b, j, rfl⟩ : ∃ (b : Fin 8) (j : Fin 128), y = ix2 b j := ⟨y 0, y 1, eq_ix2 y⟩
  rw [out_last m c t h7 _ _ _ _ (inv_all m c t.val t.isLt) b j]
  show chamfer (D m c) (tileBatch (bt t.val) b) = chamfer (D m c) (i 0)
  refine congrArg _ (Fin.ext ?_)
  show 8 * (t.val / 8 % 8) + b.val = (i 0).val
  have hb : (ix2 b j : S8x128.Idx) 0 = b := rfl
  rw [hi, hb]; omega

/-- WHAT A FLUSHING POINT WRITES BACK is its block of that array. -/
theorem flushed_eq (c : Dev nD) (t : Fin cfg0.N) (hf : (cfg0.win 2).flush t = true) :
    (dats m 0 c).flushed 2 t = ((cfg0.win 2).blk t).view.read (Elt Ideal) (Gout m c) := by
  have h7 : t.val % 8 = 7 := (flush0_2 t).mp hf
  have h0 : ¬t.val % 8 = 0 := by omega
  show (cfg0.win 2).cut (grid0.coords t) ((dats m 0 c).after 2 t) = _
  rw [after0_2, stepC_out m c t h0 h7]
  funext y
  show k0_pay1 (F := Ideal) (outsAt0 m c t.val t.isLt).2.2.1 (outsAt0 m c t.val t.isLt).2.1 y
      = Gout m c (((cfg0.win 2).blk t).view.emb y)
  refine out_row m c t h7 y _ ?_
  show win0_2.index t 0 * 8 + 1 * (y 0).val = _
  rw [(idx_out t).1]

/-- An index of the array is in point t's block iff each coordinate is in the block's range on its axis. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Row i₀ is in the block of the last point of batch tile i₀ / 8. -/
theorem cover (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  have hN : cfg0.N = 64 := N_0
  refine ⟨⟨8 * ((i 0).val / 8) + 7, by rw [hN]; omega⟩, (flush0_2 _).mpr (by show (8 * ((i 0).val / 8) + 7) % 8 = 7; omega), ?_⟩
  rw [mem_blk]
  intro a
  match a with
  | ⟨0, _⟩ =>
    show win0_2.index _ 0 * 8 ≤ (i 0).val ∧ (i 0).val < win0_2.index _ 0 * 8 + 8
    rw [(idx_out _).1]; show (8 * ((i 0).val / 8) + 7) / 8 * 8 ≤ (i 0).val ∧ (i 0).val < (8 * ((i 0).val / 8) + 7) / 8 * 8 + 8; omega
  | ⟨1, _⟩ =>
    show win0_2.index _ 1 * 128 ≤ (i 1).val ∧ (i 1).val < win0_2.index _ 1 * 128 + 128
    rw [(idx_out _).2]; omega

/-- THE ARRAY after the region. -/
theorem final (c : Dev nD) : (dats m 0 c).arrAt 2 cfg0.N = Gout m c :=
  (dats m 0 c).arrAt_eq_of_cover 2 (Gout m c) (flushed_eq m c) cover

/-- The result vector: lane 0 of every row of that array. -/
theorem tail_eq (c : Dev nD) :
    Pipeline.afterTail₀ cfgs (dats m) 0 (V0 m) [hostOps1] c main_v2 = result (D m c) := by
  unfold Pipeline.afterTail₀
  show StableHlo.after hostOps1 _ (Proc.devRef .tc main_v2) = _
  after_results
  rw [(Pipeline.withArrays_arr spec0 launch0.win.arr_inj c _ _ 2).trans (final m c)]
  funext i
  obtain ⟨b, rfl⟩ : ∃ b : Fin 64, i = ix1 b := ⟨i 0, eq_ix1 i⟩
  refine (shapeCast_apply _ _ _ (ix2 b (0 : Fin 1)) ?_).trans ?_
  · have e1 : (S64.rowMajor (ix1 b)).val = b.val := Shape.rowMajor_val_one (ix1 b)
    have e2 : (S64x1.rowMajor (ix2 b (0 : Fin 1))).val = b.val * 1 + 0 := Shape.rowMajor_val_two (ix2 b (0 : Fin 1))
    show (S64x1.rowMajor (ix2 b (0 : Fin 1))).val = (S64.rowMajor (ix1 b)).val
    rw [e1, e2]; omega
  · refine (extractStridedSlice_apply _ _ _ _ (ix2 b (0 : Fin 128)) ?_).trans rfl
    intro a
    match a with
    | ⟨0, _⟩ => show b.val = 0 + b.val; omega
    | ⟨1, _⟩ => show 0 = 0 + 0; rfl

/-- THE RUN, READ: every weakly fair execution terminates with the result at the specification's vector for the
    kernel's spelling of the distance, the two arguments unchanged. -/
theorem run : θ_run defs (onTc (τ := τ) (main (F := Ideal))) ⟨m, fun _ => 0, ρ⟩ fun r => ∀ c : Dev nD,
      r.2.mem ((c : Thread nD τ).loc main_v2) = result (D m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (by decide)).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.RunValue

end
-- ==== Proof.RefChamfer.lean ====
/-
  The reference program read as the specification's two-sided mean of nearest distances.

  The program builds the table of squared distances in the expanded form (0 + |x|²) − 2 · (x·y) + (0 + |y|²), each
  squared norm a sum over the 512 features started from the zero word, the product a sum over the same axis. Read at
  (b, v, l) that table is `distR x y b v l`, word for word: the zero words and the word for 2 are kept as they are
  spelled. A minimum of the table along one axis is a fold of `min` from the word `0x7F800000`, which denotes +∞; a
  fold of `min` from the top element over a finite index type is by definition its infimum, so the two minima are
  `Finset.univ.inf` over the language rows and over the video rows. The two outer sums start from the zero word,
  which denotes 0 and drops out; each is divided by its row count's word, and the two quotients are added: the
  specification's `chamfer` of the table, at every batch.
-/
import proofs.«178656_j9534827397593_2_alg».proof.Proof.Gen.ReferenceIdeal.Read
import proofs.«178656_j9534827397593_2_alg».proof.Proof.ChamferSpec
import Idealize.ShloMosaic.PureOps.Reduce
import Idealize.ShloMosaic.PureOps.Ideal.Laws
import Idealize.ShloMosaic.Lib.ValueIdx

noncomputable section

namespace Cert.Chamfer.Ref

open Cert.ReferenceIdeal Cert.ReferenceIdeal.Gen Cert.ReferenceIdeal.Read Idealize.ShloMosaic Idealize.ShloMosaic.ValueIdx

/-- The word `0x7F800000` denotes +∞, the top of the extended reals: the neutral element of a minimum. -/
theorem ofBits_top : Ideal.ofBits .f32 0x7F800000#32 = (⊤ : EReal) := by
  simp [Ideal.ofBits, Ideal.ieee]

/-- The squared-norm sum of video row (b, v) is read at (b, v, k), whatever language row l the distance is taken at. -/
theorem idx_sqx (b : Fin 64) (v : Fin 1024) (l : Fin 512) (k : Fin 512) :
    idx_main_v1 (idx_main_v2 (idx_main_v9 (ix3 b v l))) k = ix3 b v k :=
  funext fun a => Fin.ext (by match a with | ⟨0, _⟩ => rfl | ⟨1, _⟩ => rfl | ⟨2, _⟩ => rfl)

/-- The squared-norm sum of language row (b, l) is read at (b, l, k), whatever video row v the distance is taken at. -/
theorem idx_sqy (b : Fin 64) (v : Fin 1024) (l : Fin 512) (k : Fin 512) :
    idx_main_v4 (idx_main_v5 (idx_main_v11 (idx_main_v12 (ix3 b v l)))) k = ix3 b l k :=
  funext fun a => Fin.ext (by match a with | ⟨0, _⟩ => rfl | ⟨1, _⟩ => rfl | ⟨2, _⟩ => rfl)

/-- The product's left factor at (b, v, l) and contraction coordinate k is the video entry (b, v, k). -/
theorem idx_dotl (b : Fin 64) (v : Fin 1024) (l : Fin 512) (k : Fin 512) :
    lidx_main_v6 (ix3 b v l) k = ix3 b v k :=
  funext fun a => Fin.ext (by match a with | ⟨0, _⟩ => rfl | ⟨1, _⟩ => rfl | ⟨2, _⟩ => rfl)

/-- The product's right factor at (b, v, l) and contraction coordinate k is the language entry (b, l, k). -/
theorem idx_dotr (b : Fin 64) (v : Fin 1024) (l : Fin 512) (k : Fin 512) :
    ridx_main_v6 (ix3 b v l) k = ix3 b l k :=
  funext fun a => Fin.ext (by match a with | ⟨0, _⟩ => rfl | ⟨1, _⟩ => rfl | ⟨2, _⟩ => rfl)

/-- The table of distances the program builds, at (b, v, l), is the reference's spelling of the squared distance. -/
theorem dist_apply (x : (⟨S64x1024x512, .f32⟩ : BufTy).Contents (Elt Ideal)) (y : (⟨S64x512x512, .f32⟩ : BufTy).Contents (Elt Ideal))
    (b : Fin 64) (v : Fin 1024) (l : Fin 512) :
    val_main_v13 (F := Ideal) x y (ix3 b v l) = distR x y b v l := by
  rw [val_main_v13_apply, val_main_v10_apply, val_main_v9_apply, val_main_v2_apply, val_main_v1_apply, val_main_v8_apply,
    val_main_v7_apply, val_main_v6_apply, val_main_v12_apply, val_main_v11_apply, val_main_v5_apply, val_main_v4_apply]
  simp only [idx_sqx, idx_sqy, idx_dotl, idx_dotr, val_main_v0_apply, val_main_v3_apply, val_main_cst_apply, val_main_cst_0_apply,
    val_main_cst_1_apply]
  rfl

/-- Each video row's nearest language row: the minimum of the table over the language axis, read at (b, v), is the
    infimum over l of the distances. The fold of `min` starts from +∞, which is how the infimum of a finite family is
    defined. -/
theorem rowmin_apply (x : (⟨S64x1024x512, .f32⟩ : BufTy).Contents (Elt Ideal)) (y : (⟨S64x512x512, .f32⟩ : BufTy).Contents (Elt Ideal))
    (b : Fin 64) (v : Fin 1024) :
    val_main_v14 (F := Ideal) x y (ix2 b v) = Finset.univ.inf (fun l : Fin 512 => distR x y b v l) := by
  unfold val_main_v14
  have h : S64x1024x512.Reduces [2] S64x1024 := by decide
  refine (Host.reduce_eq_fold_single (FloatOps.minimumf (F := Ideal) (φ := .f32)) (val_main_v13 (F := Ideal) x y)
    (val_main_cst_2 (F := Ideal)) reducesTo_S64x1024x512_S64x1024_d2 h h_S_ (ix2 b v)).trans ?_
  have hf : (val_main_v13 (F := Ideal) x y ∘ h.lift (ix2 b v)) = fun l : Fin 512 => distR x y b v l := funext fun l => by
    refine Eq.trans ?_ (dist_apply x y b v l)
    exact congrArg (val_main_v13 (F := Ideal) x y)
      (funext fun a => Fin.ext (by match a with | ⟨0, _⟩ => rfl | ⟨1, _⟩ => rfl | ⟨2, _⟩ => rfl))
  rw [hf, val_main_cst_2_apply, Ideal.ofBits_def, ofBits_top]
  rfl

/-- Each language row's nearest video row: the minimum of the table over the video axis, read at (b, l), is the
    infimum over v of the distances. -/
theorem colmin_apply (x : (⟨S64x1024x512, .f32⟩ : BufTy).Contents (Elt Ideal)) (y : (⟨S64x512x512, .f32⟩ : BufTy).Contents (Elt Ideal))
    (b : Fin 64) (l : Fin 512) :
    val_main_v18 (F := Ideal) x y (ix2 b l) = Finset.univ.inf (fun v : Fin 1024 => distR x y b v l) := by
  unfold val_main_v18
  have h : S64x1024x512.Reduces [1] S64x512 := by decide
  refine (Host.reduce_eq_fold_single (FloatOps.minimumf (F := Ideal) (φ := .f32)) (val_main_v13 (F := Ideal) x y)
    (val_main_cst_5 (F := Ideal)) reducesTo_S64x1024x512_S64x512_d1 h h_S_ (ix2 b l)).trans ?_
  have hf : (val_main_v13 (F := Ideal) x y ∘ h.lift (ix2 b l)) = fun v : Fin 1024 => distR x y b v l := funext fun v => by
    refine Eq.trans ?_ (dist_apply x y b v l)
    exact congrArg (val_main_v13 (F := Ideal) x y)
      (funext fun a => Fin.ext (by match a with | ⟨0, _⟩ => rfl | ⟨1, _⟩ => rfl | ⟨2, _⟩ => rfl))
  rw [hf, val_main_cst_5_apply, Ideal.ofBits_def, ofBits_top]
  rfl

/-- The sum of the row minima of batch b is read at (b, k) for k over the 1024 video rows. -/
theorem idx_rowsum (b : Fin 64) (k : Fin 1024) : idx_main_v15 (ix1 b) k = ix2 b k :=
  funext fun a => Fin.ext (by match a with | ⟨0, _⟩ => rfl | ⟨1, _⟩ => rfl)

/-- The sum of the column minima of batch b is read at (b, k) for k over the 512 language rows. -/
theorem idx_colsum (b : Fin 64) (k : Fin 512) : idx_main_v19 (ix1 b) k = ix2 b k :=
  funext fun a => Fin.ext (by match a with | ⟨0, _⟩ => rfl | ⟨1, _⟩ => rfl)

/-- The mean over the video rows of batch b: the sum of the row minima (started from the zero word, which is 0 and
    drops out) divided by the word for 1024. -/
theorem rowmean_apply (x : (⟨S64x1024x512, .f32⟩ : BufTy).Contents (Elt Ideal)) (y : (⟨S64x512x512, .f32⟩ : BufTy).Contents (Elt Ideal))
    (b : Fin 64) :
    val_main_v17 (F := Ideal) x y (ix1 b)
      = Ideal.div (∑ v : Fin 1024, Finset.univ.inf (fun l : Fin 512 => distR x y b v l)) (Ideal.ofBits .f32 0x44800000#32) := by
  rw [val_main_v17_apply, val_main_v15_apply, val_main_v16_apply, val_main_cst_3_apply, val_main_cst_4_apply]
  simp only [idx_rowsum, rowmin_apply, Ideal.hostDivf_def, Ideal.ofBits_def]
  rw [Ideal.ofBits_zero_f32, zero_add]

/-- The mean over the language rows of batch b: the sum of the column minima divided by the word for 512. -/
theorem colmean_apply (x : (⟨S64x1024x512, .f32⟩ : BufTy).Contents (Elt Ideal)) (y : (⟨S64x512x512, .f32⟩ : BufTy).Contents (Elt Ideal))
    (b : Fin 64) :
    val_main_v21 (F := Ideal) x y (ix1 b)
      = Ideal.div (∑ l : Fin 512, Finset.univ.inf (fun v : Fin 1024 => distR x y b v l)) (Ideal.ofBits .f32 0x44000000#32) := by
  rw [val_main_v21_apply, val_main_v19_apply, val_main_v20_apply, val_main_cst_6_apply, val_main_cst_7_apply]
  simp only [idx_colsum, colmin_apply, Ideal.hostDivf_def, Ideal.ofBits_def]
  rw [Ideal.ofBits_zero_f32, zero_add]

/-- The reference program's result, at the ideal instance, is the specification's result vector for the reference's
    spelling of the distance. -/
theorem result_eq (x : (⟨Cert.ReferenceIdeal.S64x1024x512, .f32⟩ : BufTy).Contents (Elt Ideal)) (y : (⟨Cert.ReferenceIdeal.S64x512x512, .f32⟩ : BufTy).Contents (Elt Ideal)) :
    Cert.ReferenceIdeal.Read.val_main_v22 (F := Ideal) x y = Cert.Chamfer.result (Cert.Chamfer.distR x y) := by
  funext i
  obtain ⟨b, rfl⟩ : ∃ b : Fin 64, i = ValueIdx.ix1 b := ⟨i 0, ValueIdx.eq_ix1 i⟩
  rw [val_main_v22_apply, rowmean_apply, colmean_apply]
  rfl

end Cert.Chamfer.Ref

end
-- ==== Proof.FiniteInputs.lean ====
/-
  The precondition, read back: every entry of both inputs is a real number.

  The precondition says that |x| < +∞ holds at every entry of the video features and |y| < +∞ at every entry of
  the language features: each is a conjunction over all entries (a reduction by "and" over all three axes, started
  from 1), and the two are joined by one more "and"; the claim states that the result is 1.  A conjunction that is
  1 has every conjunct 1, so at every entry a the comparison max a (−a) < +∞ holds, the constant being the word
  `0x7F800000`.  Over the extended reals that excludes a = +∞ (whose absolute value is +∞) and a = −∞ (likewise),
  which leaves a real.
-/
import proofs.«178656_j9534827397593_2_alg».proof.Defs
import Idealize.ShloMosaic.Lib.ReduceAll
import Idealize.ShloMosaic.Lib.ValueIdx

noncomputable section

namespace Cert.Chamfer.Finite

open Idealize.ShloMosaic Idealize.ShloMosaic.ValueIdx

/-- The shape of rank 0 has one index. -/
instance : Subsingleton Cert.Pre_finite_inputs.S_.Idx := ⟨fun a b => funext fun d => d.elim0⟩

/-- An extended real whose absolute value max a (−a) is strictly below +∞ (the word `0x7F800000`) is a real:
    at a = −∞ and at a = +∞ the absolute value is +∞, which is not strictly below itself. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | coe r => exact ⟨r, rfl⟩
  | top => simp [Ideal.cmp] at h

/-- The precondition gives that every entry of the video features and every entry of the language features is a
    real: the outer "and" being 1 makes both conjunctions over all entries 1, each of those makes the comparison
    |a| < +∞ hold at every entry a, and such an entry is a real. -/
theorem finite_of_pre [Cert.Pre_finite_inputs.Facts]
    (x : (⟨Cert.KernelIdeal.S64x1024x512, .f32⟩ : BufTy).Contents (Elt Ideal))
    (y : (⟨Cert.KernelIdeal.S64x512x512, .f32⟩ : BufTy).Contents (Elt Ideal))
    (h : Cert.Pre_finite_inputs.fn (F := Ideal) x y = (fun _ => 1#1)) :
    (∀ i, ∃ r : ℝ, x i = (r : EReal)) ∧ (∀ i, ∃ r : ℝ, y i = (r : EReal)) := by
  have e := congrFun h ValueIdx.ix0
  dsimp only [Cert.Pre_finite_inputs.fn] at e
  obtain ⟨e1, e2⟩ := IntOp.andi_eq_one.1 e
  refine ⟨fun i => ?_, fun i => ?_⟩
  · exact real_of_abs_lt_inf (x i) (Host.reduce_andi_all _ _ _ _ _ e1 i)
  · exact real_of_abs_lt_inf (y i) (Host.reduce_andi_all _ _ _ _ _ e2 i)

end Cert.Chamfer.Finite

end
-- ==== Proof.lean ====
/-
  The proof of `Cert.Claim`: a two-sided nearest-neighbour mean of squared distances, tiled over the grid, against
  its plain whole-array form.

  For 64 batches of 1024 video rows and 512 language rows of 512 features, the result for a batch is the mean over the
  video rows of each row's smallest squared distance to a language row, plus the mean over the language rows of each
  row's smallest squared distance to a video row (Proof/ChamferSpec.lean).  The reference computes the whole
  [64, 1024, 512] table of distances and reduces it.  The kernel walks 8 batch tiles by 8 tiles of 128 video rows,
  keeps a running column minimum and a running sum of row minima in scratch, and writes the result from them at the
  last tile (Proof/KernelInvariant.lean, Proof/KernelRun.lean): a minimum or a sum over 1024 rows is the minimum or the
  sum over 8 tiles of the tiles' minima or sums.  The kernel also scales the video row by −2 before the product where
  the reference doubles the product and subtracts it; over REAL entries — which the precondition gives
  (Proof/FiniteInputs.lean) — the two distances are one number (Proof/ChamferLaw.lean), and that is the only place
  the precondition is used.  Nothing was rewritten by the idealization, so `preserves` is trivial; the three frames
  are the generated frame runs.
-/
import proofs.«178656_j9534827397593_2_alg».proof.Defs
import proofs.«178656_j9534827397593_2_alg».proof.Proof.Gen.Kernel
import proofs.«178656_j9534827397593_2_alg».proof.Proof.Gen.Kernel.Skeleton
import proofs.«178656_j9534827397593_2_alg».proof.Proof.Gen.Kernel.Launch
import proofs.«178656_j9534827397593_2_alg».proof.Proof.Gen.Kernel.Points
import proofs.«178656_j9534827397593_2_alg».proof.Proof.Gen.Kernel.Frame
import proofs.«178656_j9534827397593_2_alg».proof.Proof.Gen.KernelIdeal
import proofs.«178656_j9534827397593_2_alg».proof.Proof.Gen.KernelIdeal.Skeleton
import proofs.«178656_j9534827397593_2_alg».proof.Proof.Gen.KernelIdeal.Launch
import proofs.«178656_j9534827397593_2_alg».proof.Proof.Gen.KernelIdeal.Points
import proofs.«178656_j9534827397593_2_alg».proof.Proof.Gen.KernelIdeal.Frame
import proofs.«178656_j9534827397593_2_alg».proof.Proof.Gen.ReferenceIdeal
import proofs.«178656_j9534827397593_2_alg».proof.Proof.Gen.ReferenceIdeal.Run
import proofs.«178656_j9534827397593_2_alg».proof.Proof.Gen.ReferenceIdeal.Read
import proofs.«178656_j9534827397593_2_alg».proof.Proof.Gen.Pre_finite_inputs
import proofs.«178656_j9534827397593_2_alg».proof.Proof.KernelRun
import proofs.«178656_j9534827397593_2_alg».proof.Proof.RefChamfer
import proofs.«178656_j9534827397593_2_alg».proof.Proof.FiniteInputs
import proofs.«178656_j9534827397593_2_alg».proof.Proof.ChamferLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result is the specification's vector for its own spelling of the distance, the
    reference's the same vector for the reference's spelling, of arguments that agree and are real: one vector. -/
theorem algebraic : Cert.algebraic_KernelIdeal_ReferenceIdeal := by
  intro m ρ m' ρ' hpre hagree
  refine ⟨fun c => Cert.Chamfer.result (Cert.KernelIdeal.Inv.D m c), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Chamfer.Ref.result_eq, (hagree c).1, (hagree c).2]
  obtain ⟨hx, hy⟩ := Cert.Chamfer.Finite.finite_of_pre _ _ (hpre c)
  exact congrArg Cert.Chamfer.result (Cert.Chamfer.distK_eq_distR _ _ hx hy).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
